-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S16384 : Shape := ⟨1, ![16384]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel

variable [Facts]

def fn {F : FTy → Type} [FloatOps F] (main_arg0 : FVec F S16384x8192 .f32) (main_arg1 : IVec S16384 32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  main_v3
-- ==== Kernel.lean ====
abbrev S16384x8192 : Shape := ⟨2, ![16384, 8192]⟩
abbrev S16384 : Shape := ⟨1, ![16384]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S1x1 : Shape := ⟨2, ![1, 1]⟩
abbrev S512x8192 : Shape := ⟨2, ![512, 8192]⟩
abbrev S512x1 : Shape := ⟨2, ![512, 1]⟩
abbrev S1x512x8192 : Shape := ⟨3, ![1, 512, 8192]⟩

abbrev nBuf : Space → Nat
  | .hbm => 29
  | .vmem => 8
  | .smem => 0
  | _ => 0

abbrev bufTy : (tb : Table) → Fin (tcTables nBuf tb) → BufTy
  | .hbm, ⟨0, _⟩ => ⟨S16384x8192, .f32⟩
  | .hbm, ⟨1, _⟩ => ⟨S16384, .i32⟩
  | .hbm, ⟨2, _⟩ => ⟨S16384x1, .i32⟩
  | .hbm, ⟨3, _⟩ => ⟨S_, .i32⟩
  | .hbm, ⟨4, _⟩ => ⟨S16384x1, .i32⟩
  | .hbm, ⟨5, _⟩ => ⟨S16384x1, .i1⟩
  | .hbm, ⟨6, _⟩ => ⟨S_, .i32⟩
  | .hbm, ⟨7, _⟩ => ⟨S16384x1, .i32⟩
  | .hbm, ⟨8, _⟩ => ⟨S16384x1, .i32⟩
  | .hbm, ⟨9, _⟩ => ⟨S16384x1, .i32⟩
  | .hbm, ⟨10, _⟩ => ⟨S16384x1x1, .i32⟩
  | .hbm, ⟨11, _⟩ => ⟨S1, .i32⟩
  | .hbm, ⟨12, _⟩ => ⟨S_, .i32⟩
  | .hbm, ⟨13, _⟩ => ⟨S16384x1x1, .i32⟩
  | .hbm, ⟨14, _⟩ => ⟨S16384x1x1, .i1⟩
  | .hbm, ⟨15, _⟩ => ⟨S1x1x1, .i32⟩
  | .hbm, ⟨16, _⟩ => ⟨S16384x1x1, .i32⟩
  | .hbm, ⟨17, _⟩ => ⟨S16384x1x1, .i1⟩
  | .hbm, ⟨18, _⟩ => ⟨S16384x1x1, .i1⟩
  | .hbm, ⟨19, _⟩ => ⟨S_, .i1⟩
  | .hbm, ⟨20, _⟩ => ⟨S16384x1, .i1⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S1x1, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S512x1, .i32⟩
  | .local _ .vmem, ⟨5, _⟩ => ⟨S512x1, .i32⟩
  | .local _ .vmem, ⟨6, _⟩ => ⟨S1x1, .f32⟩
  | .local _ .vmem, ⟨7, _⟩ => ⟨S1x1, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x8192_S512x8192_0_0 : ∀ a, (![0, 0] : Fin 2 → Nat) a + S512x8192.size a ≤ S512x8192.size a
  h_S512x8192 : 0 < S512x8192.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x8192 : S512x1.Broadcasts S512x8192
  iota_S512x8192_d1_w32 : S512x8192.Iotas .tc 32 [1]
  shapeCasts_S512x8192_S1x512x8192 : S512x8192.ShapeCasts S1x512x8192
  reduces_S1x512x8192_S1 : S1x512x8192.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  gather_S16384x8192_S16384x1x1_S16384x1_n_1_0_0_1_2_11_wf : GatherDims.WF S16384x8192 S16384x1x1 S16384x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S16384x8192.size a
  hwx0_0 : ∀ i : grid0.Coords, EltTy.bits .f32 = 32 ∨ (Rect.block (s := S16384x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .f32 = 32 ∨ (Rect.block (s := S16384x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .i32 = 32 ∨ (Rect.block (s := S16384x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S16384x8192_S16384x1x1_S16384x1_n_1_0_0_1_2_11 : GatherDims S16384x8192 S16384x1x1 S16384x1 where
  offsetDims := []
  collapsedSliceDims := [1]
  operandBatchingDims := [0]
  startIndicesBatchingDims := [0]
  startIndexMap := [1]
  indexVectorDim := 2
  sliceSizes := ![1, 1]
  wf := gather_S16384x8192_S16384x1x1_S16384x1_n_1_0_0_1_2_11_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x8192 : Shape := ⟨2, ![16384, 8192]⟩
abbrev S16384 : Shape := ⟨1, ![16384]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S8192 : Shape := ⟨1, ![8192]⟩
abbrev S1x8192 : Shape := ⟨2, ![1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S16384, .i32⟩
  | .hbm, ⟨2, _⟩ => ⟨S16384x1, .i32⟩
  | .hbm, ⟨3, _⟩ => ⟨S_, .i32⟩
  | .hbm, ⟨4, _⟩ => ⟨S16384x1, .i32⟩
  | .hbm, ⟨5, _⟩ => ⟨S16384x1, .i1⟩
  | .hbm, ⟨6, _⟩ => ⟨S_, .i32⟩
  | .hbm, ⟨7, _⟩ => ⟨S16384x1, .i32⟩
  | .hbm, ⟨8, _⟩ => ⟨S16384x1, .i32⟩
  | .hbm, ⟨9, _⟩ => ⟨S16384x1, .i32⟩
  | .hbm, ⟨10, _⟩ => ⟨S16384x1x1, .i32⟩
  | .hbm, ⟨11, _⟩ => ⟨S1, .i32⟩
  | .hbm, ⟨12, _⟩ => ⟨S_, .i32⟩
  | .hbm, ⟨13, _⟩ => ⟨S16384x1x1, .i32⟩
  | .hbm, ⟨14, _⟩ => ⟨S16384x1x1, .i1⟩
  | .hbm, ⟨15, _⟩ => ⟨S1x1x1, .i32⟩
  | .hbm, ⟨16, _⟩ => ⟨S16384x1x1, .i32⟩
  | .hbm, ⟨17, _⟩ => ⟨S16384x1x1, .i1⟩
  | .hbm, ⟨18, _⟩ => ⟨S16384x1x1, .i1⟩
  | .hbm, ⟨19, _⟩ => ⟨S_, .i1⟩
  | .hbm, ⟨20, _⟩ => ⟨S16384x1, .i1⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x8192, .f32⟩
  | .hbm, ⟨27, _⟩ => ⟨S16384x8192, .f32⟩
  | .hbm, ⟨28, _⟩ => ⟨S16384x8192, .f32⟩
  | .hbm, ⟨29, _⟩ => ⟨S16384x8192, .f32⟩
  | .hbm, ⟨30, _⟩ => ⟨S_, .f32⟩
  | .hbm, ⟨31, _⟩ => ⟨S16384x8192, .f32⟩
  | .hbm, ⟨32, _⟩ => ⟨S16384x8192, .f32⟩
  | .hbm, ⟨33, _⟩ => ⟨S8192, .i32⟩
  | .hbm, ⟨34, _⟩ => ⟨S1x8192, .i32⟩
  | .hbm, ⟨35, _⟩ => ⟨S16384x1, .i32⟩
  | .hbm, ⟨36, _⟩ => ⟨S16384x8192, .i32⟩
  | .hbm, ⟨37, _⟩ => ⟨S16384x8192, .i32⟩
  | .hbm, ⟨38, _⟩ => ⟨S16384x8192, .i1⟩
  | .hbm, ⟨39, _⟩ => ⟨S_, .f32⟩
  | .hbm, ⟨40, _⟩ => ⟨S_, .f32⟩
  | .hbm, ⟨41, _⟩ => ⟨S16384x8192, .f32⟩
  | .hbm, ⟨42, _⟩ => ⟨S16384x8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S_S16384x8192 : S_.BroadcastsInDim S16384x8192 (![] : Fin 0 → Fin S16384x8192.rank)
  bcast_S16384x1_S16384x8192_0_1 : S16384x1.BroadcastsInDim S16384x8192 (![0, 1] : Fin 2 → Fin S16384x8192.rank)
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  reducesTo_S16384x8192_S_d0_1 : S16384x8192.ReducesTo [0, 1] S_
  gather_S16384x8192_S16384x1x1_S16384x1_n_1_0_0_1_2_11_wf : GatherDims.WF S16384x8192 S16384x1x1 S16384x1 [] [1] [0] [1] [0] 2 ![1, 1]

variable [Facts₀]

def gather_S16384x8192_S16384x1x1_S16384x1_n_1_0_0_1_2_11 : GatherDims S16384x8192 S16384x1x1 S16384x1 where
  offsetDims := []
  collapsedSliceDims := [1]
  operandBatchingDims := [0]
  startIndicesBatchingDims := [0]
  startIndexMap := [1]
  indexVectorDim := 2
  sliceSizes := ![1, 1]
  wf := gather_S16384x8192_S16384x1x1_S16384x1_n_1_0_0_1_2_11_wf

class Facts : Prop extends Facts₀ where

variable [Facts]
-- ==== Proof.AccPieces.lean ====
import proofs.«170430_j2465311228258_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What one grid point leaves behind, at any float instance.

  The body keeps a one-entry accumulator in scratch memory. At the first point it stores the zero vector there,
  reads it back, adds the point's block sum and stores the result; at every later point it adds the block sum to
  what the point before left; at the last point it also copies the accumulator to the output block. Each of these
  is one covering store of the same pure term (the accumulator plus this point's masked block sum), so after
  point `n` the accumulator holds that term applied `n + 1` times from the zero vector, and the output block
  written back at the last point holds the same value.
-/

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A middle point: the accumulator ends at the step term over the point's blocks and what it held. -/
theorem sout_B (c : Dev nD) (i : grid0.Coords) (a1 : Memref sig .tc .vmem S512x8192 .f32) (h1 : a1.IsWhole)
    (a2 : Memref sig .tc .vmem S512x1 .f32) (h2 : a2.IsWhole) (a3 : Memref sig .tc .vmem S512x1 .i32) (h3 : a3.IsWhole)
    (a4 : Memref sig .tc .vmem S1x1 .f32) (h4 : a4.IsWhole) (a5 : Memref sig .tc .vmem S1x1 .f32) (h5 : a5.IsWhole) (hc0 : ¬cond0_0 i) (hc1 : ¬cond0_1 i)
    (x0 : Vec F S512x8192 .f32) (x1 : Vec F S512x1 .f32) (x2 : Vec F S512x1 .i32) (xs0 : Vec F S1x1 .f32) :
    sout0_B_0 c i a1 h1 a2 h2 a3 h3 a4 h4 a5 h5 hc0 hc1 x0 x1 x2 xs0 = k0_pay2 x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  rw [View.canon_unit_zero hz]
  simp only [View.readAt_eq_ld, h1.read_unread, h2.read_unread, h3.read_unread, h5.read_unread,
    View.ld_unit_zero (S := S512x8192) hz, View.ld_unit_zero (S := S512x1) hz, View.ld_unit_zero (S := S1x1) hz]

/-- The first point: the accumulator is reset to the zero vector, read back, and ends at the step term over it. -/
theorem sout_A (c : Dev nD) (i : grid0.Coords) (a1 : Memref sig .tc .vmem S512x8192 .f32) (h1 : a1.IsWhole)
    (a2 : Memref sig .tc .vmem S512x1 .f32) (h2 : a2.IsWhole) (a3 : Memref sig .tc .vmem S512x1 .i32) (h3 : a3.IsWhole)
    (a4 : Memref sig .tc .vmem S1x1 .f32) (h4 : a4.IsWhole) (a5 : Memref sig .tc .vmem S1x1 .f32) (h5 : a5.IsWhole) (hc0 : cond0_0 i) (hc1 : ¬cond0_1 i)
    (x0 : Vec F S512x8192 .f32) (x1 : Vec F S512x1 .f32) (x2 : Vec F S512x1 .i32) :
    sout0_A_0 c i a1 h1 a2 h2 a3 h3 a4 h4 a5 h5 hc0 hc1 x0 x1 x2 = k0_pay2 x0 x1 x2 k0_pay1 := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S512x8192) hz, View.ld_unit_zero (S := S512x1) hz]

/-- The last point: the accumulator ends at the step term, as at a middle point, -/
theorem sout_C (c : Dev nD) (i : grid0.Coords) (a1 : Memref sig .tc .vmem S512x8192 .f32) (h1 : a1.IsWhole)
    (a2 : Memref sig .tc .vmem S512x1 .f32) (h2 : a2.IsWhole) (a3 : Memref sig .tc .vmem S512x1 .i32) (h3 : a3.IsWhole)
    (a4 : Memref sig .tc .vmem S1x1 .f32) (h4 : a4.IsWhole) (a5 : Memref sig .tc .vmem S1x1 .f32) (h5 : a5.IsWhole) (hc0 : ¬cond0_0 i) (hc1 : cond0_1 i)
    (x0 : Vec F S512x8192 .f32) (x1 : Vec F S512x1 .f32) (x2 : Vec F S512x1 .i32) (xs0 : Vec F S1x1 .f32) :
    sout0_C_0 c i a1 h1 a2 h2 a3 h3 a4 h4 a5 h5 hc0 hc1 x0 x1 x2 xs0 = k0_pay2 x0 x1 x2 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero hz]
  simp only [View.readAt_eq_ld, h1.read_unread, h2.read_unread, h3.read_unread, h5.read_unread,
    View.ld_unit_zero (S := S512x8192) hz, View.ld_unit_zero (S := S512x1) hz, View.ld_unit_zero (S := S1x1) hz]

/-- and the output block is a copy of it (the accumulator read back after its store). -/
theorem out_C (c : Dev nD) (i : grid0.Coords) (a1 : Memref sig .tc .vmem S512x8192 .f32) (h1 : a1.IsWhole)
    (a2 : Memref sig .tc .vmem S512x1 .f32) (h2 : a2.IsWhole) (a3 : Memref sig .tc .vmem S512x1 .i32) (h3 : a3.IsWhole)
    (a4 : Memref sig .tc .vmem S1x1 .f32) (h4 : a4.IsWhole) (a5 : Memref sig .tc .vmem S1x1 .f32) (h5 : a5.IsWhole) (hc0 : ¬cond0_0 i) (hc1 : cond0_1 i)
    (x0 : Vec F S512x8192 .f32) (x1 : Vec F S512x1 .f32) (x2 : Vec F S512x1 .i32) (xs0 : Vec F S1x1 .f32) :
    out0_C_3 c i a1 h1 a2 h2 a3 h3 a4 h4 a5 h5 hc0 hc1 x0 x1 x2 xs0 = k0_pay2 x0 x1 x2 xs0 := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero hz, View.readCov_unit_zero (S := S1x1) _ hz]
  simp only [View.readAt_eq_ld, h1.read_unread, h2.read_unread, h3.read_unread, h5.read_unread,
    View.ld_unit_zero (S := S512x8192) hz, View.ld_unit_zero (S := S512x1) hz, View.ld_unit_zero (S := S1x1) hz]

variable (m : (ℓ : Loc nD τ sig) → Buf (Elt F) ℓ)

/-- The accumulator after point `n`: the step term applied from the zero vector, one point's blocks at a time. -/
def accAt (c : Dev nD) : (n : ℕ) → n < cfg0.N → Vec F S1x1 .f32
  | 0, h => k0_pay2 (iblk m c 0 ⟨0, h⟩) (iblk m c 1 ⟨0, h⟩) (iblk m c 2 ⟨0, h⟩) k0_pay1
  | n + 1, h => k0_pay2 (iblk m c 0 ⟨n + 1, h⟩) (iblk m c 1 ⟨n + 1, h⟩) (iblk m c 2 ⟨n + 1, h⟩)
      (accAt c n (Nat.lt_of_succ_lt h))

/-- The carried scratch after each point is that accumulator: by induction on the point. -/
theorem outsAt_snd (c : Dev nD) : ∀ (n : ℕ) (h : n < cfg0.N), (outsAt0 m c n h).2 = accAt m c n h
  | 0, h => by
    rw [outsAt0_A m c ⟨0, h⟩ (Nat.zero_mod _) (by dsimp only; omega)]
    dsimp only
    rw [sout_A]
    rfl
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [sout_C]
      show k0_pay2 _ _ _ (outsAt0 m c n _).2 = k0_pay2 _ _ _ (accAt m c n _)
      rw [outsAt_snd c n]
    · rw [outsAt0_B m c ⟨n + 1, h⟩ h0 h1]
      dsimp only
      rw [sout_B]
      show k0_pay2 _ _ _ (outsAt0 m c n _).2 = k0_pay2 _ _ _ (accAt m c n _)
      rw [outsAt_snd c n]

/-- The output block after the last point is the accumulator after the last point. -/
theorem outsAt_fst_last (c : Dev nD) (h : 31 < cfg0.N) : (outsAt0 m c 31 h).1 = accAt m c 31 h := by
  rw [outsAt0_C m c ⟨31, h⟩ (by dsimp only; omega) (by dsimp only)]
  dsimp only
  rw [out_C]
  show k0_pay2 _ _ _ (outsAt0 m c 30 _).2 = k0_pay2 _ _ _ (accAt m c 30 _)
  rw [outsAt_snd m c 30]

end Cert.KernelIdeal.Acc

end
-- ==== Proof.OutArray.lean ====
import proofs.«170430_j2465311228258_1_alg».proof.Proof.Gen.KernelIdeal.Frame
import Idealize.ShloMosaic.Lib.Pipeline.Value
import Idealize.ShloMosaic.Lib.Tactic
import Idealize.ShloMosaic.Lib.StableHlo.Run
import proofs.«170430_j2465311228258_1_alg».proof.Proof.AccPieces

noncomputable section

open Idealize.ShloMosaic Idealize.ShloMosaic.TcCoe Idealize.SL.Sem
open Idealize.ShloMosaic.Pipeline (Dat)

/-!
  The kernel's result, at any float instance.

  The region's one output is a one-entry array, written back once, after the last grid point, from an output block
  that is the whole array; so after the run it holds the accumulator after the last point. @main's remaining host
  lines view that entry as a scalar and divide it by the constant `2^27` (the number of entries of the input).
-/

namespace Cert.KernelIdeal.Out

open Cert.KernelIdeal Cert.KernelIdeal.Gen Cert.KernelIdeal.Acc

variable {F : FTy → Type} [FloatOps F]
variable (m : (ℓ : Loc nD τ sig) → Buf (Elt F) ℓ) (ρ : Dev nD → PrngReg)

/-- The last grid point. -/
abbrev tLast : Fin cfg0.N := ⟨31, by rw [show cfg0.N = 32 from N_0]; decide⟩

/-- The output window's index map is constant: block (0, 0), of extent (1, 1), at every point. -/
theorem idx3 : ∀ t : Fin cfg0.N, win0_3.index t (0 : Fin 2) = 0 ∧ win0_3.index t (1 : Fin 2) = 0 := by
  show ∀ t : Fin grid0.N, _
  decide +kernel
theorem xsize3 : ∀ t : Fin cfg0.N, win0_3.xsize (grid0.coords t) (0 : Fin 2) = 1 ∧ win0_3.xsize (grid0.coords t) (1 : Fin 2) = 1 := by
  show ∀ t : Fin grid0.N, _
  decide +kernel

/-- The accumulator after the last point, as contents of the output array (its one block is the array). -/
abbrev result (c : Dev nD) : Buf (Elt F) ((c : Thread nD τ).loc main_v2) := accAt m c 31 tLast.isLt

/-- The one write-back, at the last point, writes it. -/
theorem flushed_eq (c : Dev nD) (t : Fin cfg0.N) (hf : (cfg0.win 3).flush t = true) :
    (dats m 0 c).flushed 3 t = ((cfg0.win 3).blk t).view.read (Elt F) (result m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  have e : (outsAt0 m c tLast.val tLast.isLt).1 = result m c := outsAt_fst_last m c tLast.isLt
  rw [after0_3, e]
  have hz' : (fun a => win0_3.index tLast a * main_v2.ty.shape.size a) = fun _ => 0 := funext fun a =>
    match a with
    | ⟨0, _⟩ => by show win0_3.index tLast 0 * _ = 0; rw [(idx3 tLast).1]; exact Nat.zero_mul _
    | ⟨1, _⟩ => by show win0_3.index tLast 1 * _ = 0; rw [(idx3 tLast).2]; exact Nat.zero_mul _
  exact (Memref.read_access_unit_zero (Elt F) main_v2 hz' (fun a => by rw [congrFun hz' a]; simp) (result m c)).symm

/-- So the output array ends holding the accumulator after the last point. -/
theorem final3 (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v2).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [(idx3 tLast).1, (xsize3 tLast).1]; omega
      | ⟨1, _⟩ =>
        show win0_3.index tLast 1 * win0_3.size 1 ≤ (i 1 : Nat)
          ∧ (i 1 : Nat) < win0_3.index tLast 1 * win0_3.size 1 + win0_3.xsize (grid0.coords tLast) 1
        rw [(idx3 tLast).2, (xsize3 tLast).2]; omega⟩

/-- The host lines after the region: the entry viewed as a scalar, divided by the constant. -/
def scaled (v : Vec F S1x1 .f32) : FVec F S_ .f32 :=
  Host.divf (F := F) (shapeCast S_ v shapeCasts_S1x1_S_) (constant (F := F) S_ .f32 0x4D000000#32)

/-- @main's result after the run: the scaled accumulator. -/
theorem tail_eq (c : Dev nD) :
    Pipeline.afterTail₀ cfgs (dats m) 0 (V0 m) [hostOps1] c main_v4 = scaled (result m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v2) = result m c :=
    (Pipeline.withArrays_arr spec0 launch0.win.arr_inj c _ _ 3).trans (final3 m c)
  rw [hw]
  rfl

/-- The run, read: @main's result at the scaled accumulator, both arguments unchanged. -/
theorem run : θ_run defs (onTc (τ := τ) (main (F := F))) ⟨m, fun _ => 0, ρ⟩ fun r => ∀ c : Dev nD,
      r.2.mem ((c.tc : Thread nD τ).loc main_v4) = scaled (result m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans
        (W_main_arg1 m (dats m) c)⟩)
    (run_main m ρ)

end Cert.KernelIdeal.Out

end
-- ==== Proof.BlockSum.lean ====
/-
  One grid point's step, as arithmetic.

  For a block of 512 rows the body forms, entry by entry, the hinge `max((margin + a) − p, 0)` of the entry `a`
  against its row's selected entry `p`, replaces it by zero in the row's selected column, sums the whole block, and
  adds that sum to the accumulator. Over the extended reals the block's reduction is the plain sum of the masked
  block over all its entries (a reduction into a one-entry shape from the zero word), so the step sends an
  accumulator `acc` to `acc + ∑ masked`.
-/
import proofs.«170430_j2465311228258_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Acc

open Cert.KernelIdeal Cert.KernelIdeal.Gen

variable {F : FTy → Type} [FloatOps F]

/-- The block's masked hinge: entry by entry `max((margin + a) − p, 0)`, and zero where the column is the row's
    selected one. `x0` is the block of the array, `x1` the rows' selected entries, `x2` the rows' selected columns. -/
def masked (x0 : Vec F S512x8192 .f32) (x1 : Vec F S512x1 .f32) (x2 : Vec F S512x1 .i32) : FVec F S512x8192 .f32 :=
  select
    (cmpi .ne (iota .tc S512x8192 32 [1] iota_S512x8192_d1_w32)
      (broadcastTo S512x8192 (shapeCast S512x1 x2 shapeCasts_S512x1_S512x1) broadcasts_S512x1_S512x8192))
    (maximumf
      (subf (addf (broadcast S512x8192 (Scalar.ofBits .f32 0x3E7D21FF#32)) x0)
        (broadcastTo S512x8192 (shapeCast S512x1 x1 shapeCasts_S512x1_S512x1) broadcasts_S512x1_S512x8192))
      (broadcast S512x8192 (Scalar.ofBits .f32 0x00000000#32)))
    (broadcast S512x8192 (Scalar.ofBits .f32 0x00000000#32))

/-- The step term is the accumulator plus the reduction of the masked block, re-laid as a one-entry vector. -/
theorem pay2_eq (x0 : Vec F S512x8192 .f32) (x1 : Vec F S512x1 .f32) (x2 : Vec F S512x1 .i32) (acc : Vec F S1x1 .f32) :
    k0_pay2 x0 x1 x2 acc
      = shapeCast S1x1 (addf acc (broadcast S1x1 (extractAt ![0, 0, 0]
          (shapeCast S1x1x1 (multiReduction .add [1, 2] S1
            (shapeCast S1x512x8192 (masked x0 x1 x2) shapeCasts_S512x8192_S1x512x8192)
            0x00000000#32 reduces_S1x512x8192_S1 (.inl rfl) rfl) shapeCasts_S1_S1x1x1)
          inpos_S1x1x1_p0_0_0))) shapeCasts_S1x1_S1x1 := rfl

/-- Over the extended reals: the step adds the sum of the masked block over all its entries. -/
theorem pay2_apply (x0 : Vec Ideal S512x8192 .f32) (x1 : Vec Ideal S512x1 .f32) (x2 : Vec Ideal S512x1 .i32)
    (acc : Vec Ideal S1x1 .f32) (j : S1x1.Idx) :
    k0_pay2 (F := Ideal) x0 x1 x2 acc j = acc j + ∑ y : S512x8192.Idx, masked (F := Ideal) x0 x1 x2 y := by
  rw [pay2_eq, shapeCast_self, addf_apply, broadcast_apply]
  refine congrArg (fun z => acc j + z) ?_
  unfold extractAt shapeCast
  refine (Ideal.multiReduction_add_total _ _ reduces_S1x512x8192_S1 (fun b => by fin_cases b; rfl) _ _ _).trans ?_
  exact Equiv.sum_comp (Shape.reshapeEquiv shapeCasts_S512x8192_S1x512x8192) (masked (F := Ideal) x0 x1 x2)

/-- The zero vector the first point stores is the extended real zero. -/
theorem pay1_apply (j : S1x1.Idx) : k0_pay1 (F := Ideal) j = 0 := by
  show shapeCast S1x1 (broadcast S1x1 (Scalar.ofBits (F := Ideal) .f32 0x00000000#32)) shapeCasts_S1x1_S1x1 j = 0
  rw [shapeCast_self, broadcast_apply]
  exact Ideal.ofBits_zero_f32

end Cert.KernelIdeal.Acc

end
-- ==== Proof.EntryForm.lean ====
/-
  One entry of the masked hinge, read on both sides.

  At row `p`, column `q` both programs compute the same scalar: with `a` the array's entry, `s` the row's selected
  entry and `k` the row's selected column, it is `max((margin + a) − s, 0)` when the column's number differs from
  `k`, and zero when it equals it. The kernel reads `s` and `k` from one-column blocks broadcast along the row and
  numbers the columns with an iota along the lanes; the reference broadcasts whole one-column arrays and an iota
  over the columns. Read at an index, each is the scalar function `entry` below, at any float instance.
-/
import proofs.«170430_j2465311228258_1_alg».proof.Proof.BlockSum
import proofs.«170430_j2465311228258_1_alg».proof.Proof.RefRead

noncomputable section

open Idealize.ShloMosaic Idealize.ShloMosaic.ValueIdx

namespace Cert.Entry

variable {F : FTy → Type} [FloatOps F]

/-- The masked hinge of one entry `a` against its row's selected entry `s`, in column number `col`, the row's selected
    column being `k`. -/
def entry (a s : F .f32) (col k : BitVec 32) : F .f32 :=
  Scalar.select (IntOp.cmpi .ne col k)
    (FloatOps.maximumf (FloatOps.subf (FloatOps.addf (FloatOps.ofBits .f32 0x3E7D21FF#32) a) s) (FloatOps.ofBits .f32 0x00000000#32))
    (FloatOps.ofBits .f32 0x00000000#32)

section Kernel
open Cert.KernelIdeal Cert.KernelIdeal.Gen Cert.KernelIdeal.Acc

/-- The kernel's masked block at row `r`, column `q` of the block. -/
theorem masked_apply (x0 : Vec F S512x8192 .f32) (x1 : Vec F S512x1 .f32) (x2 : Vec F S512x1 .i32)
    (r : Fin 512) (q : Fin 8192) :
    masked x0 x1 x2 (ix2 r q) = entry (x0 (ix2 r q)) (x1 (ix2 r (0 : Fin 1))) (BitVec.ofNat 32 q.val) (x2 (ix2 r (0 : Fin 1))) := by
  have hb : ∀ {α : Type} (v : S512x1.Idx → α),
      broadcastTo S512x8192 (shapeCast S512x1 v shapeCasts_S512x1_S512x1) broadcasts_S512x1_S512x8192 (ix2 r q)
        = v (ix2 r (0 : Fin 1)) := by
    intro α v
    rw [shapeCast_self]
    exact broadcastTo_apply v _ (ix2 r q) (ix2 r (0 : Fin 1)) (fun a => match a with
      | ⟨0, _⟩ => by show r.val = if (512 : Nat) = 1 then 0 else r.val; rw [if_neg (by decide)]
      | ⟨1, _⟩ => by show 0 = if (1 : Nat) = 1 then 0 else q.val; rw [if_pos rfl])
  have hi : iota .tc S512x8192 32 [1] iota_S512x8192_d1_w32 (ix2 r q) = BitVec.ofNat 32 q.val :=
    iota_single_apply _ _ _ _ _ _
  show Scalar.select (IntOp.cmpi .ne (iota .tc S512x8192 32 [1] iota_S512x8192_d1_w32 (ix2 r q))
      (broadcastTo S512x8192 (shapeCast S512x1 x2 shapeCasts_S512x1_S512x1) broadcasts_S512x1_S512x8192 (ix2 r q)))
    (FloatOps.maximumf (FloatOps.subf (FloatOps.addf (FloatOps.ofBits .f32 0x3E7D21FF#32) (x0 (ix2 r q)))
      (broadcastTo S512x8192 (shapeCast S512x1 x1 shapeCasts_S512x1_S512x1) broadcasts_S512x1_S512x8192 (ix2 r q)))
      (FloatOps.ofBits .f32 0x00000000#32)) (FloatOps.ofBits .f32 0x00000000#32) = _
  rw [hi, hb x2, hb x1]
  rfl

end Kernel

section Reference
open Cert.ReferenceIdeal Cert.ReferenceIdeal.ReadP

/-- The reference's masked array at row `p`, column `q`. -/
theorem ref_apply (att : (⟨S16384x8192, .f32⟩ : BufTy).Contents (Elt F)) (sel : (⟨S16384, .i32⟩ : BufTy).Contents (Elt F))
    (p : Fin 16384) (q : Fin 8192) :
    val_main_v14 (F := F) att sel (ix2 p q)
      = entry (att (ix2 p q)) (val_main_v1 (F := F) att sel (ix2 p (0 : Fin 1))) (BitVec.ofNat 32 q.val) (sel (ix1 p)) := by
  have i4 : idx_main_v4 (ix2 p q) = ix2 p (0 : Fin 1) :=
    funext fun a => match a with | ⟨0, _⟩ => rfl | ⟨1, _⟩ => rfl
  have i12 : idx_main_v10 (idx_main_v12 (ix2 p q)) = ix1 p :=
    funext fun a => match a with | ⟨0, _⟩ => rfl
  rw [val_main_v14_apply, val_main_v13_apply, val_main_v11_apply, val_main_v9_apply, val_main_v8_apply,
    val_main_v12_apply, val_main_v10_apply, val_main_v7_apply, val_main_v5_apply, val_main_v3_apply,
    val_main_v2_apply, val_main_cst_apply, val_main_v4_apply, val_main_v6_apply, val_main_cst_0_apply,
    val_main_call1_v1_apply, val_main_call1_v0_apply, val_main_cst_1_apply, i4, i12]
  rfl

end Reference

end Cert.Entry

end
-- ==== Proof.RowBlocks.lean ====
/-
  Summation over the rows of a [16384, 8192] array, block by block.

  The 16384 rows split into 32 consecutive blocks of 512 rows: row `r` of block `t` is row `512·t + r`.
  In any commutative additive monoid (the extended reals among them: their addition is commutative and
  associative, infinities included) the sum over every entry of the array is the sum, over the blocks, of
  each block's own sum; and a running total `((z + p 0) + p 1) + … + p n` is `z` plus the sum of its
  first `n + 1` terms. Neither fact needs cancellation or distributivity, so no finiteness is asked.
-/
import Idealize.ShloMosaic.Lib.ValueIdx

noncomputable section

open Idealize.ShloMosaic Idealize.ShloMosaic.ValueIdx

namespace Cert.RowBlocks

/-- Row `r` of row block `t` is row `512·t + r` of the whole array. -/
def row (t : Fin 32) (r : Fin 512) : Fin 16384 :=
  ⟨512 * t.val + r.val, by have := t.isLt; have := r.isLt; omega⟩

theorem row_val (t : Fin 32) (r : Fin 512) : (row t r).val = 512 * t.val + r.val := rfl

/-- Every row is row `p % 512` of block `p / 512`, and of no other block. -/
def rowEquiv : Fin 32 × Fin 512 ≃ Fin 16384 where
  toFun x := row x.1 x.2
  invFun p := (⟨p.val / 512, by have := p.isLt; omega⟩, ⟨p.val % 512, by omega⟩)
  left_inv := fun ⟨a, b⟩ => by
    have := a.isLt; have := b.isLt
    apply Prod.ext <;> apply Fin.ext <;> dsimp only [row] <;> omega
  right_inv p := by apply Fin.ext; dsimp only [row]; omega

/-- The sum over every entry of the array is the sum over the row blocks of each block's sum. -/
theorem sum_blocks {M : Type*} [AddCommMonoid M] (f : (⟨2, ![16384, 8192]⟩ : Shape).Idx → M) :
    ∑ i, f i = ∑ t : Fin 32, ∑ y : (⟨2, ![512, 8192]⟩ : Shape).Idx, f (ix2 (row t (y 0)) (y 1)) := by
  rw [sum_idx2, ← Equiv.sum_comp rowEquiv (fun p => ∑ q : Fin 8192, f (ix2 p q)), Fintype.sum_prod_type]
  refine Finset.sum_congr rfl fun t _ => ?_
  rw [sum_idx2]
  rfl

/-- The running total: `z + p 0`, then `+ p (n + 1)` at each further step. -/
def running {M : Type*} [AddCommMonoid M] (z : M) (p : ℕ → M) : ℕ → M
  | 0 => z + p 0
  | n + 1 => running z p n + p (n + 1)

/-- The running total after step `n` is `z` plus the sum of the first `n + 1` terms. -/
theorem running_eq {M : Type*} [AddCommMonoid M] (z : M) (p : ℕ → M) (n : ℕ) :
    running z p n = z + ∑ k ∈ Finset.range (n + 1), p k := by
  induction n with
  | zero => simp [running]
  | succ n ih => rw [running, ih, Finset.sum_range_succ _ (n + 1), add_assoc]

end Cert.RowBlocks

end
-- ==== Proof.KernelReads.lean ====
import proofs.«170430_j2465311228258_1_alg».proof.Proof.Gen.KernelIdeal.Frame
import Idealize.ShloMosaic.Lib.Pipeline.Value
import Idealize.ShloMosaic.Lib.Tactic
import Idealize.ShloMosaic.Lib.StableHlo.Run
import Idealize.ShloMosaic.Lib.ValueIdx
import proofs.«170430_j2465311228258_1_alg».proof.Proof.RowBlocks
import proofs.«170430_j2465311228258_1_alg».proof.Proof.RefRead

noncomputable section

open Idealize.ShloMosaic Idealize.ShloMosaic.TcCoe Idealize.SL.Sem
open Idealize.ShloMosaic.Pipeline (Dat)

/-!
  What the region's windows hold, at any float instance.

  Grid point `t` works on row block `t`: its block of the array is rows `512·t … 512·t + 511`, all 8192 columns, and
  its two one-column blocks are the same rows of the rows' selected entries and of the rows' selected columns. Before
  the region @main's host lines write those two one-column arrays from the arguments: the selected columns are the
  index argument laid as a column, and the selected entries are the gather of the array along each row at the row's
  (wrapped, range-checked) column — the same host lines, on the same arguments, as the reference runs.
-/

namespace Cert.KernelIdeal.Reads

open Cert.KernelIdeal Cert.KernelIdeal.Gen Cert.RowBlocks Idealize.ShloMosaic.ValueIdx

variable {F : FTy → Type} [FloatOps F]
variable (m : (ℓ : Loc nD τ sig) → Buf (Elt F) ℓ)

/-- A grid point's number as a row-block number. -/
def blockOf (t : Fin cfg0.N) : Fin 32 := ⟨t.val, lt_of_lt_of_eq t.isLt (show cfg0.N = 32 from N_0)⟩

/-- The three input windows' index maps: block row `t`, block column 0. -/
theorem idx0 : ∀ t : Fin cfg0.N, win0_0.index t (0 : Fin 2) = t.val ∧ win0_0.index t (1 : Fin 2) = 0 := by
  show ∀ t : Fin grid0.N, _
  decide +kernel
theorem idx1 : ∀ t : Fin cfg0.N, win0_1.index t (0 : Fin 2) = t.val ∧ win0_1.index t (1 : Fin 2) = 0 := by
  show ∀ t : Fin grid0.N, _
  decide +kernel
theorem idx2 : ∀ t : Fin cfg0.N, win0_2.index t (0 : Fin 2) = t.val ∧ win0_2.index t (1 : Fin 2) = 0 := by
  show ∀ t : Fin grid0.N, _
  decide +kernel

/-- Entry (r, q) of point `t`'s block of the array is entry (512·t + r, q) of the array. -/
theorem iblk0_apply (c : Dev nD) (t : Fin cfg0.N) (r : Fin 512) (q : Fin 8192) :
    (iblk m c 0 t : Vec F S512x8192 .f32) (ix2 r q)
      = (V m c main_arg0 : S16384x8192.Idx → F .f32) (ix2 (row (blockOf t) r) q) := by
  unfold iblk
  rw [View.read_apply]
  show (V m c main_arg0 : S16384x8192.Idx → F .f32) _ = (V m c main_arg0 : S16384x8192.Idx → F .f32) _
  refine congrArg (V m c main_arg0 : S16384x8192.Idx → F .f32) (funext fun a => Fin.ext ?_)
  match a with
  | ⟨0, _⟩ => show win0_0.index t 0 * 512 + 1 * r.val = 512 * t.val + r.val; rw [(idx0 t).1]; omega
  | ⟨1, _⟩ => show win0_0.index t 1 * 8192 + 1 * q.val = q.val; rw [(idx0 t).2]; omega

/-- Row `r` of point `t`'s block of the selected entries is row `512·t + r` of them. -/
theorem iblk1_apply (c : Dev nD) (t : Fin cfg0.N) (r : Fin 512) :
    (iblk m c 1 t : Vec F S512x1 .f32) (ix2 r (0 : Fin 1))
      = (V m c main_v1 : S16384x1.Idx → F .f32) (ix2 (row (blockOf t) r) (0 : Fin 1)) := by
  unfold iblk
  rw [View.read_apply]
  show (V m c main_v1 : S16384x1.Idx → F .f32) _ = (V m c main_v1 : S16384x1.Idx → F .f32) _
  refine congrArg (V m c main_v1 : S16384x1.Idx → F .f32) (funext fun a => Fin.ext ?_)
  match a with
  | ⟨0, _⟩ => show win0_1.index t 0 * 512 + 1 * r.val = 512 * t.val + r.val; rw [(idx1 t).1]; omega
  | ⟨1, _⟩ => show win0_1.index t 1 * 1 + 1 * 0 = 0; rw [(idx1 t).2]

/-- Row `r` of point `t`'s block of the selected columns is row `512·t + r` of them. -/
theorem iblk2_apply (c : Dev nD) (t : Fin cfg0.N) (r : Fin 512) :
    (iblk m c 2 t : Vec F S512x1 .i32) (ix2 r (0 : Fin 1))
      = (V m c main_v0 : S16384x1.Idx → BitVec 32) (ix2 (row (blockOf t) r) (0 : Fin 1)) := by
  unfold iblk
  rw [View.read_apply]
  show (V m c main_v0 : S16384x1.Idx → BitVec 32) _ = (V m c main_v0 : S16384x1.Idx → BitVec 32) _
  refine congrArg (V m c main_v0 : S16384x1.Idx → BitVec 32) (funext fun a => Fin.ext ?_)
  match a with
  | ⟨0, _⟩ => show win0_2.index t 0 * 512 + 1 * r.val = 512 * t.val + r.val; rw [(idx2 t).1]; omega
  | ⟨1, _⟩ => show win0_2.index t 1 * 1 + 1 * 0 = 0; rw [(idx2 t).2]

/-- The selected columns as the region finds them: the index argument laid as a column. -/
theorem V_cols (c : Dev nD) :
    (V m c main_v0 : S16384x1.Idx → BitVec 32)
      = broadcastInDim S16384x1 ![0] bcast_S16384_S16384x1_0 (m ((c : Thread nD τ).loc main_arg1)) := by
  dsimp only [V, V0]
  simp only [hostOps0, hostOps0_1, List.flatten_cons, List.flatten_nil, List.append_nil, List.cons_append,
    List.nil_append]
  after_results

set_option maxRecDepth 65536 in
set_option maxHeartbeats 4000000 in
/-- The selected entries as the region finds them: the reference's own gather-and-check stage of the two arguments
    (both programs run the same host lines here). -/
theorem V_selected (c : Dev nD) :
    (V m c main_v1 : S16384x1.Idx → F .f32)
      = Cert.ReferenceIdeal.ReadP.val_main_v1 (F := F) (m ((c : Thread nD τ).loc main_arg0)) (m ((c : Thread nD τ).loc main_arg1)) := by
  dsimp only [V, V0]
  simp only [hostOps0, hostOps0_1, List.flatten_cons, List.flatten_nil, List.append_nil, List.cons_append,
    List.nil_append]
  after_results_simp <;> rfl

/-- The selected column of row `p`, read off the column the region finds: the index argument at `p`. -/
theorem V_cols_apply (c : Dev nD) (p : Fin 16384) :
    (V m c main_v0 : S16384x1.Idx → BitVec 32) (ix2 p (0 : Fin 1))
      = (m ((c : Thread nD τ).loc main_arg1) : S16384.Idx → BitVec 32) (ix1 p) := by
  rw [V_cols]
  exact broadcastInDim_apply _ bcast_S16384_S16384x1_0 _ (ix2 p (0 : Fin 1)) (ix1 p) (fun a => match a with
    | ⟨0, _⟩ => by show p.val = if (16384 : Nat) = 1 then 0 else p.val; rw [if_neg (by decide)])

end Cert.KernelIdeal.Reads

end
-- ==== Proof.KernelTotal.lean ====
/-
  The kernel's accumulator is the reference's sum, over the extended reals.

  Write `H` for the masked hinge of the whole [16384, 8192] array (the reference's array before its sum). Point `t`'s
  masked block is `H` on rows `512·t … 512·t + 511` (entry by entry: both sides are the same scalar function of the
  array's entry, the row's selected entry, the column number and the row's selected column), so its block sum is the
  sum of `H` over those rows. The accumulator after point `n` is therefore the running total `((0 + b₀) + b₁) + … + bₙ`
  of the block sums, which is `0 + (b₀ + … + bₙ)`; after the last point that is `0` plus the sum of `H` over all
  blocks of rows, i.e. over every entry — the reference's `0 + ∑ H`. Only commutativity and associativity of addition
  are used, which hold on the extended reals with the infinities included: the inputs' finiteness is never opened.
-/
import proofs.«170430_j2465311228258_1_alg».proof.Proof.AccPieces
import proofs.«170430_j2465311228258_1_alg».proof.Proof.OutArray
import proofs.«170430_j2465311228258_1_alg».proof.Proof.EntryForm
import proofs.«170430_j2465311228258_1_alg».proof.Proof.KernelReads

noncomputable section

open Idealize.ShloMosaic Idealize.ShloMosaic.TcCoe Idealize.SL.Sem Idealize.ShloMosaic.ValueIdx

namespace Cert.KernelIdeal.Total

open Cert.KernelIdeal Cert.KernelIdeal.Gen Cert.KernelIdeal.Acc Cert.KernelIdeal.Reads Cert.RowBlocks Cert.Entry
open Cert.ReferenceIdeal.ReadP (val_main_v1 val_main_v14 val_main_v15)

variable (m : (ℓ : Loc nD τ sig) → Buf (Elt Ideal) ℓ)

/-- The array argument and the index argument, as the reference's stages take them. -/
abbrev att (c : Dev nD) : (⟨Cert.ReferenceIdeal.S16384x8192, .f32⟩ : BufTy).Contents (Elt Ideal) :=
  m ((c : Thread nD τ).loc main_arg0)
abbrev sel (c : Dev nD) : (⟨Cert.ReferenceIdeal.S16384, .i32⟩ : BufTy).Contents (Elt Ideal) :=
  m ((c : Thread nD τ).loc main_arg1)

/-- The masked hinge of the whole array. -/
abbrev H (c : Dev nD) : (⟨2, ![16384, 8192]⟩ : Shape).Idx → EReal := val_main_v14 (F := Ideal) (att m c) (sel m c)

/-- The sum of `H` over row block `k` (zero past the last block). -/
def blockTotal (c : Dev nD) (k : ℕ) : EReal :=
  if h : k < 32 then ∑ y : (⟨2, ![512, 8192]⟩ : Shape).Idx, H m c (ix2 (row ⟨k, h⟩ (y 0)) (y 1)) else 0

/-- Point `t`'s masked block, entry by entry, is `H` on the block's rows. -/
theorem masked_rows (c : Dev nD) (t : Fin cfg0.N) (r : Fin 512) (q : Fin 8192) :
    masked (F := Ideal) (iblk m c 0 t) (iblk m c 1 t) (iblk m c 2 t) (ix2 r q) = H m c (ix2 (row (blockOf t) r) q) := by
  refine (masked_apply (F := Ideal) (iblk m c 0 t) (iblk m c 1 t) (iblk m c 2 t) r q).trans ?_
  refine Eq.trans ?_ (ref_apply (F := Ideal) (att m c) (sel m c) (row (blockOf t) r) q).symm
  rw [iblk0_apply, iblk1_apply, iblk2_apply, V_main_arg0, V_selected, V_cols_apply]

/-- So its block sum is the sum of `H` over those rows. -/
theorem block_sum (c : Dev nD) (t : Fin cfg0.N) :
    ∑ y : S512x8192.Idx, masked (F := Ideal) (iblk m c 0 t) (iblk m c 1 t) (iblk m c 2 t) y = blockTotal m c t.val := by
  have ht : t.val < 32 := lt_of_lt_of_eq t.isLt (show cfg0.N = 32 from N_0)
  rw [blockTotal, dif_pos ht]
  refine Finset.sum_congr rfl fun y _ => ?_
  obtain ⟨r, q, rfl⟩ : ∃ (r : Fin 512) (q : Fin 8192), y = ix2 r q := ⟨y 0, y 1, eq_ix2 y⟩
  exact masked_rows m c t r q

/-- One step at any point `t`: the accumulator gains block `t`'s sum of `H`. -/
theorem step_apply (c : Dev nD) (t : Fin cfg0.N) (acc : Vec Ideal S1x1 .f32) (j : S1x1.Idx) :
    k0_pay2 (F := Ideal) (iblk m c 0 t) (iblk m c 1 t) (iblk m c 2 t) acc j = acc j + blockTotal m c t.val := by
  refine (pay2_apply (iblk m c 0 t) (iblk m c 1 t) (iblk m c 2 t) acc j).trans ?_
  rw [block_sum]

/-- The accumulator after point `n` is the running total of the block sums, from zero. -/
theorem accAt_apply (c : Dev nD) : ∀ (n : ℕ) (h : n < cfg0.N) (j : S1x1.Idx),
    accAt m c n h j = running (0 : EReal) (blockTotal m c) n
  | 0, h, j => by
    rw [accAt]
    refine (step_apply m c ⟨0, h⟩ (k0_pay1 (F := Ideal)) j).trans ?_
    rw [pay1_apply]
    rfl
  | n + 1, h, j => by
    rw [accAt]
    refine (step_apply m c ⟨n + 1, h⟩ (accAt m c n (Nat.lt_of_succ_lt h)) j).trans ?_
    rw [accAt_apply c n]
    rfl

/-- After the last point it is the reference's sum: zero plus the sum of `H` over every entry. -/
theorem acc_last (c : Dev nD) (h : 31 < cfg0.N) (j : S1x1.Idx) :
    accAt m c 31 h j = val_main_v15 (F := Ideal) (att m c) (sel m c) ix0 := by
  rw [accAt_apply, running_eq, Finset.sum_range (fun k => blockTotal m c k),
    Cert.ReferenceIdeal.ReadP.val_main_v15_apply, sum_blocks]
  refine congrArg₂ (· + ·) Ideal.ofBits_zero_f32.symm (Finset.sum_congr rfl fun t _ => ?_)
  rw [blockTotal, dif_pos t.isLt]

/-- The kernel's result — the last accumulator viewed as a scalar and divided by `2^27` — is the reference's last stage
    of the same arguments: the same quotient of the same sum. -/
theorem scaled_result (c : Dev nD) :
    Cert.KernelIdeal.Out.scaled (F := Ideal) (Cert.KernelIdeal.Out.result m c)
      = Cert.ReferenceIdeal.ReadP.val_main_v16 (F := Ideal) (att m c) (sel m c) := by
  have e : shapeCast S_ (Cert.KernelIdeal.Out.result m c) shapeCasts_S1x1_S_
      = val_main_v15 (F := Ideal) (att m c) (sel m c) := by
    funext i
    rw [eq_ix0 i]
    exact acc_last m c _ _
  unfold Cert.KernelIdeal.Out.scaled
  rw [e]
  rfl

end Cert.KernelIdeal.Total

end
-- ==== Proof.lean ====
/-
  A margin loss over a [16384, 8192] array, summed block by block against one whole sum.

  Both programs take an array `att` and, per row `i`, a column `k_i`. Each first gathers the row's selected entry
  `s_i = att[i, k_i]` (negative columns wrapped, an out-of-range column giving a fill value) with the same host lines,
  and both compute

      ( ∑_{i, j}  [ j ≠ k_i ] · max((margin + att[i, j]) − s_i, 0) ) / 2^27 .

  The reference sums the masked array in one reduction from zero. The kernel walks 32 blocks of 512 rows: at each grid
  point it sums the point's masked block and adds that to a one-entry accumulator (reset to zero at the first point),
  writes the accumulator out after the last point, and the host divides. Over the extended reals the accumulator is
  the running total `((0 + b₀) + b₁) + … + b₃₁` of the block sums, which is `0` plus the sum over every entry, by
  commutativity and associativity of addition alone; so the two results are the same quotient of the same sum, and
  the inputs' finiteness is not needed. The idealization rewrote nothing, so `preserves` is `True`.

  The modules: RowBlocks (the summation law), AccPieces (what each grid point leaves), BlockSum (a point's step as
  arithmetic), EntryForm (one entry read on both sides), KernelReads (which rows a block holds; what the host lines
  before the region wrote), OutArray (the output array and the host lines after the region), KernelTotal (the
  accumulator is the reference's sum), RefRun and RefRead (the reference's run and its stages read at an index).
-/
import proofs.«170430_j2465311228258_1_alg».proof.Defs
import proofs.«170430_j2465311228258_1_alg».proof.Proof.Gen.Kernel
import proofs.«170430_j2465311228258_1_alg».proof.Proof.Gen.Kernel.Skeleton
import proofs.«170430_j2465311228258_1_alg».proof.Proof.Gen.Kernel.Launch
import proofs.«170430_j2465311228258_1_alg».proof.Proof.Gen.Kernel.Points
import proofs.«170430_j2465311228258_1_alg».proof.Proof.Gen.Kernel.Frame
import proofs.«170430_j2465311228258_1_alg».proof.Proof.Gen.KernelIdeal
import proofs.«170430_j2465311228258_1_alg».proof.Proof.Gen.KernelIdeal.Skeleton
import proofs.«170430_j2465311228258_1_alg».proof.Proof.Gen.KernelIdeal.Launch
import proofs.«170430_j2465311228258_1_alg».proof.Proof.Gen.KernelIdeal.Points
import proofs.«170430_j2465311228258_1_alg».proof.Proof.Gen.KernelIdeal.Frame
import proofs.«170430_j2465311228258_1_alg».proof.Proof.Gen.ReferenceIdeal
import proofs.«170430_j2465311228258_1_alg».proof.Proof.Gen.Pre_finite_inputs
import proofs.«170430_j2465311228258_1_alg».proof.Proof.KernelTotal
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- At the extended reals, from memories that agree on the two arguments, the kernel ends at the scaled last
    accumulator and the reference at its last stage: the same quotient of the same sum (`scaled_result`). -/
theorem algebraic : Cert.algebraic_KernelIdeal_ReferenceIdeal := by
  intro m ρ m' ρ' _ hagree
  refine ⟨fun c => Cert.KernelIdeal.Out.scaled (Cert.KernelIdeal.Out.result m c),
    Cert.KernelIdeal.Out.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v16_eq, (hagree c).1, (hagree c).2]
  exact (Cert.KernelIdeal.Total.scaled_result m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
